-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x1 : Shape := ⟨2, ![2048, 1]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x1 : S_.BroadcastsInDim S2048x1 (![] : Fin 0 → Fin S2048x1.rank)
  reducesTo_S2048x1_S_d0_1 : S2048x1.ReducesTo [0, 1] S_

variable [Facts]

def fn_part1 {F : FTy → Type} [FloatOps F] (main_arg4 : FVec F S2048x1 .f32) (main_arg5 : FVec F S2048x1 .f32) (main_arg6 : FVec F S2048x1 .f32) (main_v13 : IVec S_ 1) (main_v16 : IVec S2048x1 1) : IVec S_ 1 :=
  let main_c_5 : IVec S_ 1 := constantI S_ 1 1#1
  let main_v17 : IVec S_ 1 := (fun x v => Host.reduce IntOp.andi x v reducesTo_S2048x1_S_d0_1 h_S_) main_v16 main_c_5
  let main_v18 : IVec S_ 1 := andi main_v13 main_v17
  let main_v19 : FVec F S2048x1 .f32 := Host.absf main_arg4
  let main_cst_6 : FVec F S_ .f32 := constant S_ .f32 0x7F800000#32
  let main_v20 : FVec F S2048x1 .f32 := broadcastInDim S2048x1 ![] bcast_S_S2048x1 main_cst_6
  let main_v21 : IVec S2048x1 1 := cmpf .olt main_v19 main_v20
  let main_c_7 : IVec S_ 1 := constantI S_ 1 1#1
  let main_v22 : IVec S_ 1 := (fun x v => Host.reduce IntOp.andi x v reducesTo_S2048x1_S_d0_1 h_S_) main_v21 main_c_7
  let main_v23 : IVec S_ 1 := andi main_v18 main_v22
  let main_v24 : FVec F S2048x1 .f32 := Host.absf main_arg5
  let main_cst_8 : FVec F S_ .f32 := constant S_ .f32 0x7F800000#32
  let main_v25 : FVec F S2048x1 .f32 := broadcastInDim S2048x1 ![] bcast_S_S2048x1 main_cst_8
  let main_v26 : IVec S2048x1 1 := cmpf .olt main_v24 main_v25
  let main_c_9 : IVec S_ 1 := constantI S_ 1 1#1
  let main_v27 : IVec S_ 1 := (fun x v => Host.reduce IntOp.andi x v reducesTo_S2048x1_S_d0_1 h_S_) main_v26 main_c_9
  let main_v28 : IVec S_ 1 := andi main_v23 main_v27
  let main_v29 : FVec F S2048x1 .f32 := Host.absf main_arg6
  let main_cst_10 : FVec F S_ .f32 := constant S_ .f32 0x7F800000#32
  let main_v30 : FVec F S2048x1 .f32 := broadcastInDim S2048x1 ![] bcast_S_S2048x1 main_cst_10
  let main_v31 : IVec S2048x1 1 := cmpf .olt main_v29 main_v30
  let main_c_11 : IVec S_ 1 := constantI S_ 1 1#1
  let main_v32 : IVec S_ 1 := (fun x v => Host.reduce IntOp.andi x v reducesTo_S2048x1_S_d0_1 h_S_) main_v31 main_c_11
  let main_v33 : IVec S_ 1 := andi main_v28 main_v32
  main_v33

def fn {F : FTy → Type} [FloatOps F] (main_arg0 : FVec F S16384x2048 .f32) (main_arg1 : FVec F S2048x1 .f32) (main_arg2 : FVec F S2048x1 .f32) (main_arg3 : FVec F S2048x1 .f32) (main_arg4 : FVec F S2048x1 .f32) (main_arg5 : FVec F S2048x1 .f32) (main_arg6 : FVec F S2048x1 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x1 .f32 := Host.absf main_arg1
  let main_cst_0 : FVec F S_ .f32 := constant S_ .f32 0x7F800000#32
  let main_v5 : FVec F S2048x1 .f32 := broadcastInDim S2048x1 ![] bcast_S_S2048x1 main_cst_0
  let main_v6 : IVec S2048x1 1 := cmpf .olt main_v4 main_v5
  let main_c_1 : IVec S_ 1 := constantI S_ 1 1#1
  let main_v7 : IVec S_ 1 := (fun x v => Host.reduce IntOp.andi x v reducesTo_S2048x1_S_d0_1 h_S_) main_v6 main_c_1
  let main_v8 : IVec S_ 1 := andi main_v3 main_v7
  let main_v9 : FVec F S2048x1 .f32 := Host.absf main_arg2
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  let main_v14 : FVec F S2048x1 .f32 := Host.absf main_arg3
  let main_cst_4 : FVec F S_ .f32 := constant S_ .f32 0x7F800000#32
  let main_v15 : FVec F S2048x1 .f32 := broadcastInDim S2048x1 ![] bcast_S_S2048x1 main_cst_4
  let main_v16 : IVec S2048x1 1 := cmpf .olt main_v14 main_v15
  fn_part1 (F := F) main_arg4 main_arg5 main_arg6 main_v13 main_v16
-- ==== Kernel.lean ====
abbrev S16384x2048 : Shape := ⟨2, ![16384, 2048]⟩
abbrev S2048x1 : Shape := ⟨2, ![2048, 1]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048x1, .f32⟩
  | .hbm, ⟨2, _⟩ => ⟨S2048x1, .f32⟩
  | .hbm, ⟨3, _⟩ => ⟨S2048x1, .f32⟩
  | .hbm, ⟨4, _⟩ => ⟨S2048x1, .f32⟩
  | .hbm, ⟨5, _⟩ => ⟨S2048x1, .f32⟩
  | .hbm, ⟨6, _⟩ => ⟨S2048x1, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2048x1_S1x2048 : S2048x1.ShapeCasts S1x2048
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S16384x2048.size a
  hwx0_7 : ∀ i : grid0.Coords, EltTy.bits .f32 = 32 ∨ (Rect.block (s := S16384x2048) S512x2048.size (cc0_transform_7 i) (hinb0_7 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x1 : Shape := ⟨2, ![2048, 1]⟩
abbrev S16384x1 : Shape := ⟨2, ![16384, 1]⟩
abbrev S2048 : Shape := ⟨1, ![2048]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1, .f32⟩
  | .hbm, ⟨2, _⟩ => ⟨S2048x1, .f32⟩
  | .hbm, ⟨3, _⟩ => ⟨S2048x1, .f32⟩
  | .hbm, ⟨4, _⟩ => ⟨S2048x1, .f32⟩
  | .hbm, ⟨5, _⟩ => ⟨S2048x1, .f32⟩
  | .hbm, ⟨6, _⟩ => ⟨S2048x1, .f32⟩
  | .hbm, ⟨7, _⟩ => ⟨S16384x1, .f32⟩
  | .hbm, ⟨8, _⟩ => ⟨S16384x2048, .f32⟩
  | .hbm, ⟨9, _⟩ => ⟨S16384x2048, .f32⟩
  | .hbm, ⟨10, _⟩ => ⟨S2048, .f32⟩
  | .hbm, ⟨11, _⟩ => ⟨S1x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x1, .f32⟩
  | .hbm, ⟨24, _⟩ => ⟨S16384x2048, .f32⟩
  | .hbm, ⟨25, _⟩ => ⟨S16384x2048, .f32⟩
  | .hbm, ⟨26, _⟩ => ⟨S2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  bcast_S16384x1_S16384x2048_0_1 : S16384x1.BroadcastsInDim S16384x2048 (![0, 1] : Fin 2 → Fin S16384x2048.rank)
  shapeCasts_S2048x1_S2048 : S2048x1.ShapeCasts S2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S2048x1_S16384x1_1_0_0_1_n_n_wf : DotDims.WF S16384x2048 S2048x1 S16384x1 [1] [0] [0] [1] [] []

variable [Facts₀]

def dot_S16384x2048_S2048x1_S16384x1_1_0_0_1_n_n : DotDims S16384x2048 S2048x1 S16384x1 where
  lhsContracting := [1]
  rhsContracting := [0]
  lhsNonContracting := [0]
  rhsNonContracting := [1]
  lhsBatch := []
  rhsBatch := []
  wf := dot_S16384x2048_S2048x1_S16384x1_1_0_0_1_n_n_wf

class Facts : Prop extends Facts₀ where

variable [Facts]
-- ==== Proof.FiniteInputs.lean ====
/-
  What the precondition says, entry by entry.

  The precondition takes, for each of the seven input arrays, the absolute value of every entry, compares it with +∞,
  reduces the comparisons by "and" over the whole array, and joins the seven results by "and".  That it comes out
  true therefore says: for every input array and every index, |a(i)| < +∞.  An extended real whose absolute value is
  below +∞ is neither infinity, so it is a real number.  Hence every entry of every input is a real number.
-/
import proofs.«133371_j13322988552563_2_alg».proof.Pre_finite_inputs
import Idealize.ShloMosaic.PureOps.Ideal
import Idealize.ShloMosaic.Lib.Affine
import Idealize.ShloMosaic.Lib.ReduceAll
import Idealize.ShloMosaic.Lib.ValueIdx
import Idealize.ShloMosaic.Lib.Pipeline.Value

noncomputable section

namespace Cert.Pre_finite_inputs.Entries

open Cert.Pre_finite_inputs Idealize.ShloMosaic Idealize.ShloMosaic.ValueIdx

variable [Cert.Pre_finite_inputs.Facts]

/-- The scalar shape has one index. -/
instance : Subsingleton S_.Idx := ⟨fun a b => funext fun d => d.elim0⟩

/-- The word the entries are compared with is +∞. -/
theorem inf_word : Ideal.ofBits .f32 0x7F800000#32 = (⊤ : EReal) := by simp [Ideal.ofBits, Ideal.ieee]

/-- An extended real with |x| < +∞ is a real number: at either infinity |x| = +∞. -/
theorem real_of_abs_lt_top (x : EReal) (h : Ideal.cmp .olt (max x (-x)) (Ideal.ofBits .f32 0x7F800000#32) = 1#1) :
    ∃ r : ℝ, x = r := by
  rw [inf_word] at h
  induction x using EReal.rec with
  | bot => exfalso; simp [Ideal.cmp] at h
  | top => exfalso; simp [Ideal.cmp] at h
  | coe r => exact ⟨r, rfl⟩

/-- One comparison |a(i)| < +∞ that holds makes a(i) a real number. -/
theorem entry_real {S : Shape} (a : FVec Ideal S .f32) (hb : S_.BroadcastsInDim S (![] : Fin 0 → Fin S.rank)) (i : S.Idx)
    (e : cmpf .olt (Host.absf a) (broadcastInDim S ![] hb (constant (F := Ideal) S_ .f32 0x7F800000#32)) i = 1#1) :
    ∃ r : ℝ, a i = r := by
  rw [cmpf_apply, broadcastInDim_apply _ hb _ i ix0 (fun d => d.elim0), constant_apply] at e
  exact real_of_abs_lt_top (a i) e

/-- The comparisons reduced by "and" over the whole array: if the result is true, every entry is a real number. -/
theorem all_real {S : Shape} {axes : List (Fin S.rank)} (a : FVec Ideal S .f32)
    (hb : S_.BroadcastsInDim S (![] : Fin 0 → Fin S.rank)) (hr : S.ReducesTo axes S_) (hu : 0 < S_.numel) (init : IVec S_ 1)
    (e : Host.reduce IntOp.andi (cmpf .olt (Host.absf a) (broadcastInDim S ![] hb (constant (F := Ideal) S_ .f32 0x7F800000#32))) init hr hu ix0 = 1#1) :
    ∀ i, ∃ r : ℝ, a i = r :=
  fun i => entry_real a hb i (Host.reduce_andi_all _ init hr hu ix0 e i)

/-- The precondition, true, makes every entry of every input a real number. -/
theorem inputs_real (a0 : FVec Ideal S16384x2048 .f32) (a1 a2 a3 a4 a5 a6 : FVec Ideal S2048x1 .f32)
    (h : fn (F := Ideal) a0 a1 a2 a3 a4 a5 a6 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r) := by
  have h0 := congrFun h ix0
  dsimp only [fn, fn_part1] at h0
  change IntOp.andi _ _ = 1#1 at h0
  obtain ⟨h0, e6⟩ := IntOp.andi_eq_one.1 h0
  change IntOp.andi _ _ = 1#1 at h0
  obtain ⟨h0, e5⟩ := IntOp.andi_eq_one.1 h0
  change IntOp.andi _ _ = 1#1 at h0
  obtain ⟨h0, e4⟩ := IntOp.andi_eq_one.1 h0
  change IntOp.andi _ _ = 1#1 at h0
  obtain ⟨h0, e3⟩ := IntOp.andi_eq_one.1 h0
  change IntOp.andi _ _ = 1#1 at h0
  obtain ⟨h0, e2⟩ := IntOp.andi_eq_one.1 h0
  change IntOp.andi _ _ = 1#1 at h0
  obtain ⟨e0, e1⟩ := IntOp.andi_eq_one.1 h0
  exact ⟨all_real a0 _ _ _ _ e0, all_real a1 _ _ _ _ e1, all_real a2 _ _ _ _ e2, all_real a3 _ _ _ _ e3,
    all_real a4 _ _ _ _ e4, all_real a5 _ _ _ _ e5, all_real a6 _ _ _ _ e6⟩

end Cert.Pre_finite_inputs.Entries

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.LibPowOne.lean ====
/-
  The power with exponent one, on the extended reals.

  The single-precision word 0x3F800000 is the real number 1, and raising any extended real to the power 1 gives it
  back: −∞ to any power is −∞ by convention, +∞ to a positive power is +∞, and a real base x to the real power 1 is x
  whatever the sign of x.  So a program that writes q ** 1.0 computes q, with no condition on q.
-/
import Idealize.ShloMosaic.PureOps.Ideal

noncomputable section

namespace Cert.LibPowOne

open Idealize.ShloMosaic

/-- The word 0x3F800000 has sign 0, biased exponent 127 and mantissa 0: the real number 1. -/
theorem ofBits_one_f32 : Ideal.ofBits .f32 0x3F800000#32 = 1 := by
  simp [Ideal.ofBits, Ideal.ieee, -EReal.coe_mul]; norm_num

/-- Raising to the power 1 changes nothing, on every extended real: −∞ stays −∞, +∞ to a positive power is +∞, and
    on a real base it is the real power x¹ = x (whatever the sign of x). -/
theorem pow_one (q : EReal) : Ideal.pow q 1 = q := by
  rw [← EReal.coe_one]
  induction q using EReal.rec with
  | bot => rfl
  | top =>
    rw [Ideal.pow_top, if_pos (by exact_mod_cast one_pos)]
  | coe x =>
    rw [Ideal.pow_coe_coe]
    show ((x ^ (1 : ℝ) : ℝ) : EReal) = x
    rw [Real.rpow_one]

/-- The same with the exponent spelt as the single-precision word of 1.0. -/
theorem pow_ofBits_one_f32 (q : EReal) : Ideal.pow q (Ideal.ofBits .f32 0x3F800000#32) = q := by
  rw [ofBits_one_f32]
  exact pow_one q

end Cert.LibPowOne

end
-- ==== Proof.CrossLaw.lean ====
/-
  One cross layer on a row, and the law that joins its two spellings.

  For a row y, a weight w and a bias b, all indexed by one finite set, put s = Σ_j y_j · w_j.  One spelling of the layer
  is  y_k · (s + 1) + b_k,  the other is  (y_k · s + b_k) + y_k.  Over the reals the two agree by distributivity.  Over
  the extended reals distributivity fails at the infinities, so the two are compared where every entry is a real
  number: there each of them is the real layer  y_k · s + b_k + y_k,  whose entries are real again, and so the
  comparison carries through any number of stacked layers.
-/
import Idealize.ShloMosaic.PureOps.Ideal

noncomputable section

namespace Cert.CrossLaw

variable {ι : Type} [Fintype ι]

/-- The layer with the row's inner product folded into the scale: y_k · (s + 1) + b_k. -/
def scaled (y w b : ι → EReal) : ι → EReal := fun k => y k * ((∑ j, y j * w j) + 1) + b k

/-- The layer with the row added back at the end: (y_k · s + b_k) + y_k. -/
def residual (y w b : ι → EReal) : ι → EReal := fun k => y k * (∑ j, y j * w j) + b k + y k

/-- The layer over the reals. -/
def layer (y w b : ι → ℝ) : ι → ℝ := fun k => y k * (∑ j, y j * w j) + b k + y k

/-- A finite sum of real numbers, taken in the extended reals, is the real sum. -/
theorem coe_sum (s : Finset ι) (f : ι → ℝ) : (∑ j ∈ s, (f j : EReal)) = ((∑ j ∈ s, f j : ℝ) : EReal) := by
  classical
  refine Finset.induction_on s ?_ ?_
  · simp
  · intro a t ha ih
    rw [Finset.sum_insert ha, Finset.sum_insert ha, ih, EReal.coe_add]

/-- The row's inner product of real entries is the real inner product. -/
theorem coe_inner (y w : ι → ℝ) : (∑ j, (y j : EReal) * (w j : EReal)) = ((∑ j, y j * w j : ℝ) : EReal) := by
  rw [← coe_sum]
  exact Finset.sum_congr rfl fun j _ => (EReal.coe_mul _ _).symm

/-- On real entries the scaled spelling is the real layer: y·(s + 1) + b = y·s + b + y. -/
theorem scaled_coe (y w b : ι → ℝ) :
    scaled (fun i => (y i : EReal)) (fun i => (w i : EReal)) (fun i => (b i : EReal)) = fun k => ((layer y w b k : ℝ) : EReal) := by
  funext k
  show (y k : EReal) * ((∑ j, (y j : EReal) * (w j : EReal)) + 1) + (b k : EReal) = _
  rw [coe_inner, ← EReal.coe_one, ← EReal.coe_add, ← EReal.coe_mul, ← EReal.coe_add]
  exact congrArg _ (by unfold layer; ring)

/-- On real entries the residual spelling is the real layer. -/
theorem residual_coe (y w b : ι → ℝ) :
    residual (fun i => (y i : EReal)) (fun i => (w i : EReal)) (fun i => (b i : EReal)) = fun k => ((layer y w b k : ℝ) : EReal) := by
  funext k
  show (y k : EReal) * (∑ j, (y j : EReal) * (w j : EReal)) + (b k : EReal) + (y k : EReal) = _
  rw [coe_inner, ← EReal.coe_mul, ← EReal.coe_add, ← EReal.coe_add]
  rfl

/-- Three stacked layers: on real entries the scaled spelling and the residual spelling give the same row. -/
theorem scaled3_eq_residual3 (x w1 b1 w2 b2 w3 b3 : ι → EReal)
    (hx : ∀ i, ∃ r : ℝ, x i = r) (hw1 : ∀ i, ∃ r : ℝ, w1 i = r) (hb1 : ∀ i, ∃ r : ℝ, b1 i = r)
    (hw2 : ∀ i, ∃ r : ℝ, w2 i = r) (hb2 : ∀ i, ∃ r : ℝ, b2 i = r)
    (hw3 : ∀ i, ∃ r : ℝ, w3 i = r) (hb3 : ∀ i, ∃ r : ℝ, b3 i = r) :
    scaled (scaled (scaled x w1 b1) w2 b2) w3 b3 = residual (residual (residual x w1 b1) w2 b2) w3 b3 := by
  choose x' hx using hx
  choose w1' hw1 using hw1
  choose b1' hb1 using hb1
  choose w2' hw2 using hw2
  choose b2' hb2 using hb2
  choose w3' hw3 using hw3
  choose b3' hb3 using hb3
  obtain rfl := funext hx
  obtain rfl := funext hw1
  obtain rfl := funext hb1
  obtain rfl := funext hw2
  obtain rfl := funext hb2
  obtain rfl := funext hw3
  obtain rfl := funext hb3
  rw [scaled_coe, scaled_coe, scaled_coe, residual_coe, residual_coe, residual_coe]

end Cert.CrossLaw

end
-- ==== Proof.KernelRows.lean ====
/-
  The kernel's body, read one row at a time.

  The body holds a block y of 512 rows and 2048 columns and, three times over, a weight row w and a bias row b, each a
  [1, 2048] block.  One layer forms, for every row p of the block, s_p = Σ_j y(p, j) · w(0, j) by a sum along the row,
  keeps it as a column, adds 1 to it, spreads the column over the row and returns y(p, k) · (s_p + 1) + b(0, k).  Entry
  (p, k) of a layer therefore depends only on row p of y: it is the scaled spelling of the cross layer applied to that
  row.  What the body stores is three such layers nested, so entry (p, k) of the stored block is the three-fold scaled
  layer of row p of the loaded block.
-/
import proofs.«133371_j13322988552563_2_alg».proof.Proof.Gen.KernelIdeal
import proofs.«133371_j13322988552563_2_alg».proof.Proof.Gen.KernelIdeal.Skeleton
import Idealize.ShloMosaic.Lib.ValueIdx
import Idealize.ShloMosaic.Lib.ValueLayout
import Idealize.ShloMosaic.Lib.Pipeline.Value
import proofs.«133371_j13322988552563_2_alg».proof.Proof.LibKeepdims
import proofs.«133371_j13322988552563_2_alg».proof.Proof.LibRowReduce
import proofs.«133371_j13322988552563_2_alg».proof.Proof.LibPowOne
import proofs.«133371_j13322988552563_2_alg».proof.Proof.CrossLaw

noncomputable section

namespace Cert.KernelIdeal.Rows

open Cert.KernelIdeal Cert.KernelIdeal.Gen Idealize.ShloMosaic Idealize.ShloMosaic.ValueIdx Cert.CrossLaw

/-- One layer as the body spells it, on a block y with a weight row w and a bias row b. -/
def layerVec (y : FVec Ideal S512x2048 .f32) (w b : FVec Ideal S1x2048 .f32) : FVec Ideal S512x2048 .f32 :=
  addf (mulf y (broadcastTo S512x2048 (addf (shapeCast S512x1 (multiReduction .add [1] S512 (mulf y (broadcastTo S512x2048 (shapeCast S1x2048 w shapeCasts_S1x2048_S1x2048) broadcasts_S1x2048_S512x2048)) 0x00000000#32 reduces_S512x2048_S512 (.inl rfl) rfl) shapeCasts_S512_S512x1) (broadcast S512x1 (Scalar.ofBits .f32 0x3F800000#32))) broadcasts_S512x1_S512x2048)) (broadcastTo S512x2048 (shapeCast S1x2048 b shapeCasts_S1x2048_S1x2048) broadcasts_S1x2048_S512x2048)

/-- The word the body adds to the row's inner product is the real number 1. -/
theorem one_word : (Scalar.ofBits .f32 0x3F800000#32 : Ideal .f32) = (1 : EReal) := Cert.LibPowOne.ofBits_one_f32

/-- The body's sum along the rows of a block, at row p: the sum of the row's entries. -/
theorem rowSum (src : FVec Ideal S512x2048 .f32) (hφ : FKind.Formats FTy.f32) (hacc : (0x00000000#32 : BitVec 32) = 0x00000000#32)
    (p : Fin 512) :
    multiReduction .add [1] S512 src 0x00000000#32 reduces_S512x2048_S512 hφ hacc (ix1 p) = ∑ o : Fin 2048, src (ix2 p o) :=
  Cert.LibRowReduce.multiReduction_add_row src 0x00000000#32 reduces_S512x2048_S512 hφ hacc p

/-- One layer at entry (p, k): the scaled spelling on row p. -/
theorem layerVec_apply (y : FVec Ideal S512x2048 .f32) (w b : FVec Ideal S1x2048 .f32) (p : Fin 512) (k : Fin 2048) :
    layerVec y w b (ix2 p k)
      = scaled (fun j => y (ix2 p j)) (fun j => w (ix2 (0 : Fin 1) j)) (fun j => b (ix2 (0 : Fin 1) j)) k := by
  unfold layerVec
  rw [addf_apply, mulf_apply, Cert.LibKeepdims.broadcastTo_a1_ab_apply, addf_apply, broadcast_apply,
    Cert.LibKeepdims.shapeCast_a_a1_apply, rowSum, broadcastTo_1b_ab_apply,
    shapeCast_self, one_word]
  simp only [mulf_apply, broadcastTo_1b_ab_apply, shapeCast_self]
  rfl

/-- What the body stores is three layers nested. -/
theorem pay_eq (y : FVec Ideal S512x2048 .f32) (w1 b1 w2 b2 w3 b3 : FVec Ideal S1x2048 .f32) :
    k0_pay1 (F := Ideal) (k0_pay2 y w1 b1 w2 b2) (k0_pay3 b3) (k0_pay4 y w1 b1 w2 b2 w3)
      = layerVec (layerVec (layerVec y w1 b1) w2 b2) w3 b3 := rfl

/-- Entry (p, k) of the stored block: three scaled layers on row p of the loaded block. -/
theorem pay_apply (y : FVec Ideal S512x2048 .f32) (w1 b1 w2 b2 w3 b3 : FVec Ideal S1x2048 .f32) (p : Fin 512) (k : Fin 2048) :
    k0_pay1 (F := Ideal) (k0_pay2 y w1 b1 w2 b2) (k0_pay3 b3) (k0_pay4 y w1 b1 w2 b2 w3) (ix2 p k)
      = scaled (scaled (scaled (fun j => y (ix2 p j)) (fun j => w1 (ix2 (0 : Fin 1) j)) (fun j => b1 (ix2 (0 : Fin 1) j)))
          (fun j => w2 (ix2 (0 : Fin 1) j)) (fun j => b2 (ix2 (0 : Fin 1) j)))
          (fun j => w3 (ix2 (0 : Fin 1) j)) (fun j => b3 (ix2 (0 : Fin 1) j)) k := by
  rw [pay_eq, layerVec_apply]
  simp only [layerVec_apply]

end Cert.KernelIdeal.Rows

end
-- ==== Proof.LibColumnAsRow.lean ====
/-
  A column read as a row.

  An [a, 1] array reshaped to [1, a] keeps its entries in row-major order, and both shapes list the a entries one after
  another: entry (0, j) of the row is entry (j, 0) of the column.  General in the extent and in the element type.
-/
import Idealize.ShloMosaic.Lib.Pipeline.Value
import Idealize.ShloMosaic.Lib.ValueIdx

noncomputable section

namespace Cert.LibColumnAsRow

open Idealize.ShloMosaic Idealize.ShloMosaic.ValueIdx

variable {α : Type}

/-- A column `[a, 1]` cast to the row `[1, a]` reads, at `(0, j)`, the column's entry `(j, 0)`: both sit at row-major
    position `j`. -/
theorem shapeCast_a1_1a_apply {a : ℕ} (x : (⟨2, ![a, 1]⟩ : Shape).Idx → α) (h : (⟨2, ![a, 1]⟩ : Shape).ShapeCasts ⟨2, ![1, a]⟩)
    (u : Fin 1) (j : Fin a) (v : Fin 1) : shapeCast ⟨2, ![1, a]⟩ x h (ix2 u j) = x (ix2 j v) :=
  shapeCast_apply x h _ _ (by
    have hu : u.val = 0 := by omega
    have hv : v.val = 0 := by omega
    rw [Shape.rowMajor_val_two, Shape.rowMajor_val_two]
    show j.val * 1 + v.val = u.val * a + j.val
    rw [hu, hv, Nat.mul_one, Nat.add_zero, Nat.zero_mul, Nat.zero_add])

/-- The other way: a row `[1, a]` cast to the column `[a, 1]` reads, at `(j, 0)`, the row's entry `(0, j)`. -/
theorem shapeCast_1a_a1_apply {a : ℕ} (x : (⟨2, ![1, a]⟩ : Shape).Idx → α) (h : (⟨2, ![1, a]⟩ : Shape).ShapeCasts ⟨2, ![a, 1]⟩)
    (j : Fin a) (v : Fin 1) (u : Fin 1) : shapeCast ⟨2, ![a, 1]⟩ x h (ix2 j v) = x (ix2 u j) :=
  shapeCast_apply x h _ _ (by
    have hu : u.val = 0 := by omega
    have hv : v.val = 0 := by omega
    rw [Shape.rowMajor_val_two, Shape.rowMajor_val_two]
    show u.val * a + j.val = j.val * 1 + v.val
    rw [hu, hv, Nat.mul_one, Nat.add_zero, Nat.zero_mul, Nat.zero_add])

end Cert.LibColumnAsRow

end
-- ==== Proof.KernelArray.lean ====
/-
  From the kernel's blocks to its whole result.

  The grid has 32 points.  Point t holds rows 512·t … 512·t + 511 of the input matrix as its block, the six weight and
  bias rows whole, and writes rows 512·t … 512·t + 511 of the output.  A weight or bias row [1, 2048] is the
  corresponding input column [2048, 1] reshaped before the call: its entry (0, j) is the column's entry (j, 0).  Since
  entry (p, k) of the stored block depends only on row p of the loaded block, the output's row r is the three-fold
  scaled layer of the input's row r, whatever point wrote it; and the 32 blocks cover all 16384 rows.  So the output
  array is one function of the seven arguments: row by row, the three-fold scaled layer.
-/
import proofs.«133371_j13322988552563_2_alg».proof.Proof.Gen.KernelIdeal.Value
import proofs.«133371_j13322988552563_2_alg».proof.Proof.KernelRows
import proofs.«133371_j13322988552563_2_alg».proof.Proof.LibColumnAsRow
import Idealize.ShloMosaic.Lib.StableHlo.Run

noncomputable section

namespace Cert.KernelIdeal.WholeArray

open Cert.KernelIdeal Cert.KernelIdeal.Gen Cert.KernelIdeal.Rows Idealize.ShloMosaic Idealize.ShloMosaic.TcCoe Idealize.SL.Sem
open Idealize.ShloMosaic.ValueIdx Cert.CrossLaw
open Idealize.ShloMosaic.Pipeline (Dat)

/-- Row r, column k of the result: three scaled layers on row r of the input X, with the weight and bias columns. -/
def crossRow (X : S16384x2048.Idx → EReal) (W1 B1 W2 B2 W3 B3 : S2048x1.Idx → EReal) (r : Fin 16384) (k : Fin 2048) : EReal :=
  scaled (scaled (scaled (fun j => X (ix2 r j)) (fun j => W1 (ix2 j (0 : Fin 1))) (fun j => B1 (ix2 j (0 : Fin 1))))
    (fun j => W2 (ix2 j (0 : Fin 1))) (fun j => B2 (ix2 j (0 : Fin 1))))
    (fun j => W3 (ix2 j (0 : Fin 1))) (fun j => B3 (ix2 j (0 : Fin 1))) k

/-- The result array as one function of the seven arguments. -/
def crossArray (X : S16384x2048.Idx → EReal) (W1 B1 W2 B2 W3 B3 : S2048x1.Idx → EReal) : S16384x2048.Idx → EReal :=
  fun i => crossRow X W1 B1 W2 B2 W3 B3 ⟨(i 0).val, idx2_lt0 i⟩ ⟨(i 1).val, idx2_lt1 i⟩

/-- A column [2048, 1] reshaped to a row [1, 2048]: entry (0, j) of the row is entry (j, 0) of the column. -/
theorem row_of_col (A : S2048x1.Idx → EReal) (h : S2048x1.ShapeCasts S1x2048) (j : Fin 2048) :
    shapeCast S1x2048 A h (ix2 (0 : Fin 1) j) = A (ix2 j (0 : Fin 1)) :=
  Cert.LibColumnAsRow.shapeCast_a1_1a_apply A h 0 j 0

/-- Entry (p, k) of the stored block when the loaded block's row p is row r of X and the six loaded rows are the six
    columns reshaped: entry (r, k) of the result. -/
theorem point_apply (X : S16384x2048.Idx → EReal) (W1 B1 W2 B2 W3 B3 : S2048x1.Idx → EReal)
    (y : FVec Ideal S512x2048 .f32) (w1 b1 w2 b2 w3 b3 : FVec Ideal S1x2048 .f32) (r : Fin 16384) (p : Fin 512) (k : Fin 2048)
    (hy : ∀ j, y (ix2 p j) = X (ix2 r j))
    (hw1 : ∀ j, w1 (ix2 (0 : Fin 1) j) = W1 (ix2 j (0 : Fin 1))) (hb1 : ∀ j, b1 (ix2 (0 : Fin 1) j) = B1 (ix2 j (0 : Fin 1)))
    (hw2 : ∀ j, w2 (ix2 (0 : Fin 1) j) = W2 (ix2 j (0 : Fin 1))) (hb2 : ∀ j, b2 (ix2 (0 : Fin 1) j) = B2 (ix2 j (0 : Fin 1)))
    (hw3 : ∀ j, w3 (ix2 (0 : Fin 1) j) = W3 (ix2 j (0 : Fin 1))) (hb3 : ∀ j, b3 (ix2 (0 : Fin 1) j) = B3 (ix2 j (0 : Fin 1))) :
    k0_pay1 (F := Ideal) (k0_pay2 y w1 b1 w2 b2) (k0_pay3 b3) (k0_pay4 y w1 b1 w2 b2 w3) (ix2 p k)
      = crossRow X W1 B1 W2 B2 W3 B3 r k := by
  rw [pay_apply, funext hy, funext hw1, funext hb1, funext hw2, funext hb2, funext hw3, funext hb3]
  rfl

variable (m : (ℓ : Loc nD τ sig) → Buf (Elt Ideal) ℓ) (ρ : Dev nD → PrngReg)

theorem hz : (![0, 0] : Fin 2 → Nat) = fun _ => 0 := funext fun a => by fin_cases a <;> rfl

/-- The block index maps over the 32 points: the input block and the output block move together along the rows, neither
    moves along the columns, the weight and bias rows do not move, and the output's block row is the point's number. -/
theorem idx_facts : ∀ t : Fin cfg0.N,
    win0_0.index t (0 : Fin 2) = win0_7.index t (0 : Fin 2) ∧ win0_0.index t (1 : Fin 2) = 0 ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val :=
  (by decide +kernel : ∀ t : Fin grid0.N, _)

/-- The first weight row as the region finds it: the first weight column reshaped. -/
theorem V_row0 (c : Dev nD) : (V m c main_v0 : S1x2048.Idx → EReal)
    = shapeCast S1x2048 (m ((c : Thread nD τ).loc main_arg1)) shapeCasts_S2048x1_S1x2048 := by
  dsimp only [Gen.V, Gen.hostOps0]; after_results; rfl
theorem V_row1 (c : Dev nD) : (V m c main_v1 : S1x2048.Idx → EReal)
    = shapeCast S1x2048 (m ((c : Thread nD τ).loc main_arg2)) shapeCasts_S2048x1_S1x2048 := by
  dsimp only [Gen.V, Gen.hostOps0]; after_results; rfl
theorem V_row2 (c : Dev nD) : (V m c main_v2 : S1x2048.Idx → EReal)
    = shapeCast S1x2048 (m ((c : Thread nD τ).loc main_arg3)) shapeCasts_S2048x1_S1x2048 := by
  dsimp only [Gen.V, Gen.hostOps0]; after_results; rfl
theorem V_row3 (c : Dev nD) : (V m c main_v3 : S1x2048.Idx → EReal)
    = shapeCast S1x2048 (m ((c : Thread nD τ).loc main_arg4)) shapeCasts_S2048x1_S1x2048 := by
  dsimp only [Gen.V, Gen.hostOps0]; after_results; rfl
theorem V_row4 (c : Dev nD) : (V m c main_v4 : S1x2048.Idx → EReal)
    = shapeCast S1x2048 (m ((c : Thread nD τ).loc main_arg5)) shapeCasts_S2048x1_S1x2048 := by
  dsimp only [Gen.V, Gen.hostOps0]; after_results; rfl
theorem V_row5 (c : Dev nD) : (V m c main_v5 : S1x2048.Idx → EReal)
    = shapeCast S1x2048 (m ((c : Thread nD τ).loc main_arg6)) shapeCasts_S2048x1_S1x2048 := by
  dsimp only [Gen.V, Gen.hostOps0]; after_results; rfl

/-- A loaded weight or bias row read where the block index sits: the column's entry under it. -/
theorem row_read (A : S1x2048.Idx → EReal) (C : S2048x1.Idx → EReal) (h : S2048x1.ShapeCasts S1x2048)
    (hA : A = shapeCast S1x2048 C h) (i : S1x2048.Idx) (q : Fin 2048) (h0 : (i 0).val = 0) (h1 : (i 1).val = q.val) :
    A i = C (ix2 q (0 : Fin 1)) := by
  have e : i = ix2 (0 : Fin 1) q := funext fun a => Fin.ext (by match a with | ⟨0, _⟩ => exact h0 | ⟨1, _⟩ => exact h1)
  rw [e, hA, row_of_col]

/-- Entry j of the stored block, for any block index j, under the same hypotheses as `point_apply`. -/
theorem point_apply_idx (X : S16384x2048.Idx → EReal) (W1 B1 W2 B2 W3 B3 : S2048x1.Idx → EReal)
    (y : FVec Ideal S512x2048 .f32) (w1 b1 w2 b2 w3 b3 : FVec Ideal S1x2048 .f32) (r : Fin 16384) (j : S512x2048.Idx) (k : Fin 2048)
    (hk : k.val = (j 1).val)
    (hy : ∀ q, y (ix2 (⟨(j 0).val, idx2_lt0 j⟩ : Fin 512) q) = X (ix2 r q))
    (hw1 : ∀ q, w1 (ix2 (0 : Fin 1) q) = W1 (ix2 q (0 : Fin 1))) (hb1 : ∀ q, b1 (ix2 (0 : Fin 1) q) = B1 (ix2 q (0 : Fin 1)))
    (hw2 : ∀ q, w2 (ix2 (0 : Fin 1) q) = W2 (ix2 q (0 : Fin 1))) (hb2 : ∀ q, b2 (ix2 (0 : Fin 1) q) = B2 (ix2 q (0 : Fin 1)))
    (hw3 : ∀ q, w3 (ix2 (0 : Fin 1) q) = W3 (ix2 q (0 : Fin 1))) (hb3 : ∀ q, b3 (ix2 (0 : Fin 1) q) = B3 (ix2 q (0 : Fin 1))) :
    k0_pay1 (F := Ideal) (k0_pay2 y w1 b1 w2 b2) (k0_pay3 b3) (k0_pay4 y w1 b1 w2 b2 w3) j
      = crossRow X W1 B1 W2 B2 W3 B3 r k := by
  have hj : j = ix2 (⟨(j 0).val, idx2_lt0 j⟩ : Fin 512) (⟨(j 1).val, idx2_lt1 j⟩ : Fin 2048) :=
    funext fun a => by match a with | ⟨0, _⟩ => rfl | ⟨1, _⟩ => rfl
  have hk' : k = ⟨(j 1).val, idx2_lt1 j⟩ := Fin.ext hk
  subst hk'
  exact (congrArg (k0_pay1 (F := Ideal) (k0_pay2 y w1 b1 w2 b2) (k0_pay3 b3) (k0_pay4 y w1 b1 w2 b2 w3)) hj).trans
    (point_apply X W1 B1 W2 B2 W3 B3 y w1 b1 w2 b2 w3 b3 r _ _ hy hw1 hb1 hw2 hb2 hw3 hb3)

/-- WHAT POINT t WRITES BACK is block t of the result array. -/
theorem flushed_eq (c : Dev nD) (t : Fin cfg0.N) :
    (dats m 0 c).flushed 7 t = ((cfg0.win 7).blk t).view.read (Elt Ideal) (crossArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Cert.KernelIdeal.Value.flushed7]
  unfold out0_7
  rw [View.canon_unit_zero hz]
  simp only [View.ld_unit_zero (S := S512x2048) hz, View.ld_unit_zero (S := S1x2048) hz]
  obtain ⟨f0, f1, f2, f3, f4, f5, f6, f7, f8, f9, f10, f11, f12, f13, f14, f15⟩ := idx_facts t
  have ht : t.val < 32 := lt_of_lt_of_eq t.isLt N_0
  funext j
  have hj0 : (j 0).val < 512 := (j 0).isLt
  have hj1 : (j 1).val < 2048 := (j 1).isLt
  show k0_pay1 (F := Ideal) (k0_pay2 (iblk m c 0 t) (iblk m c 1 t) (iblk m c 2 t) (iblk m c 3 t) (iblk m c 4 t)) (k0_pay3 (iblk m c 6 t))
      (k0_pay4 (iblk m c 0 t) (iblk m c 1 t) (iblk m c 2 t) (iblk m c 3 t) (iblk m c 4 t) (iblk m c 5 t)) j
    = crossRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        ⟨win0_7.index t (0 : Fin 2) * 512 + 1 * (j 0).val, by omega⟩ ⟨win0_7.index t (1 : Fin 2) * 2048 + 1 * (j 1).val, by omega⟩
  refine point_apply_idx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (iblk m c 0 t) (iblk m c 1 t) (iblk m c 2 t) (iblk m c 3 t) (iblk m c 4 t) (iblk m c 5 t) (iblk m c 6 t) _ j _ ?_ ?_ ?_ ?_ ?_ ?_ ?_ ?_
  · show win0_7.index t (1 : Fin 2) * 2048 + 1 * (j 1).val = (j 1).val
    omega
  · intro q
    show V m c main_arg0 (((cfg0.win 0).blk t).view.emb (ix2 (⟨(j 0).val, idx2_lt0 j⟩ : Fin 512) q)) = _
    rw [V_main_arg0]
    refine congrArg _ (funext fun a => Fin.ext ?_)
    match a with
    | ⟨0, _⟩ => show win0_0.index t (0 : Fin 2) * 512 + 1 * (j 0).val = win0_7.index t (0 : Fin 2) * 512 + 1 * (j 0).val; omega
    | ⟨1, _⟩ => show win0_0.index t (1 : Fin 2) * 2048 + 1 * q.val = q.val; omega
  · exact fun q => row_read _ _ _ (V_row0 m c) (((cfg0.win 1).blk t).view.emb (ix2 (0 : Fin 1) q)) q
      (by show win0_1.index t (0 : Fin 2) * 1 + 1 * 0 = 0; omega) (by show win0_1.index t (1 : Fin 2) * 2048 + 1 * q.val = q.val; omega)
  · exact fun q => row_read _ _ _ (V_row1 m c) (((cfg0.win 2).blk t).view.emb (ix2 (0 : Fin 1) q)) q
      (by show win0_2.index t (0 : Fin 2) * 1 + 1 * 0 = 0; omega) (by show win0_2.index t (1 : Fin 2) * 2048 + 1 * q.val = q.val; omega)
  · exact fun q => row_read _ _ _ (V_row2 m c) (((cfg0.win 3).blk t).view.emb (ix2 (0 : Fin 1) q)) q
      (by show win0_3.index t (0 : Fin 2) * 1 + 1 * 0 = 0; omega) (by show win0_3.index t (1 : Fin 2) * 2048 + 1 * q.val = q.val; omega)
  · exact fun q => row_read _ _ _ (V_row3 m c) (((cfg0.win 4).blk t).view.emb (ix2 (0 : Fin 1) q)) q
      (by show win0_4.index t (0 : Fin 2) * 1 + 1 * 0 = 0; omega) (by show win0_4.index t (1 : Fin 2) * 2048 + 1 * q.val = q.val; omega)
  · exact fun q => row_read _ _ _ (V_row4 m c) (((cfg0.win 5).blk t).view.emb (ix2 (0 : Fin 1) q)) q
      (by show win0_5.index t (0 : Fin 2) * 1 + 1 * 0 = 0; omega) (by show win0_5.index t (1 : Fin 2) * 2048 + 1 * q.val = q.val; omega)
  · exact fun q => row_read _ _ _ (V_row5 m c) (((cfg0.win 6).blk t).view.emb (ix2 (0 : Fin 1) q)) q
      (by show win0_6.index t (0 : Fin 2) * 1 + 1 * 0 = 0; omega) (by show win0_6.index t (1 : Fin 2) * 2048 + 1 * q.val = q.val; omega)

/-- An index of the output array is in point t's block iff each coordinate is in the block's range on its axis. -/
theorem mem_blk (t : Fin cfg0.N) (i : S16384x2048.Idx) :
    i ∈ ((cfg0.win 7).blk t).view.set ↔ ∀ a : Fin 2, win0_7.index t a * S512x2048.size a ≤ (i a).val
      ∧ (i a).val < win0_7.index t a * S512x2048.size a + S512x2048.size a := by
  show i ∈ ((View.whole main_v6).slice (win0_7.rect t)).set ↔ _
  rw [View.set_slice_whole, Rect.mem_set_unit]
  exact Iff.rfl

/-- Every index of the output array is in some point's block: row r is in the block of point r / 512. -/
theorem cover (i : S16384x2048.Idx) : ∃ t : Fin cfg0.N, (cfg0.win 7).flush t = true ∧ i ∈ ((cfg0.win 7).blk t).view.set := by
  have hi0 : (i 0).val < 16384 := (i 0).isLt
  have hi1 : (i 1).val < 2048 := (i 1).isLt
  have hN : cfg0.N = 32 := N_0
  have hlt : (i 0).val / 512 < cfg0.N := by rw [hN]; omega
  obtain ⟨f0, f1, f2, f3, f4, f5, f6, f7, f8, f9, f10, f11, f12, f13, f14, f15⟩ := idx_facts ⟨(i 0).val / 512, hlt⟩
  have f15' : win0_7.index ⟨(i 0).val / 512, hlt⟩ (0 : Fin 2) = (i 0).val / 512 := f15
  refine ⟨⟨(i 0).val / 512, hlt⟩, flush0_7 _, ?_⟩
  rw [mem_blk]
  intro a
  match a with
  | ⟨0, _⟩ =>
    show win0_7.index ⟨(i 0).val / 512, hlt⟩ (0 : Fin 2) * 512 ≤ (i 0).val
      ∧ (i 0).val < win0_7.index ⟨(i 0).val / 512, hlt⟩ (0 : Fin 2) * 512 + 512
    omega
  | ⟨1, _⟩ =>
    show win0_7.index ⟨(i 0).val / 512, hlt⟩ (1 : Fin 2) * 2048 ≤ (i 1).val
      ∧ (i 1).val < win0_7.index ⟨(i 0).val / 512, hlt⟩ (1 : Fin 2) * 2048 + 2048
    omega

/-- THE OUTPUT ARRAY after the run: the result array of the seven arguments. -/
theorem final (c : Dev nD) : (dats m 0 c).arrAt 7 cfg0.N = crossArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 _ (fun t _ => flushed_eq m c t) cover

/-- The kernel's run: it ends with the output array at the result array of the arguments, the arguments unchanged. -/
theorem run : θ_run defs (onTc (τ := τ) (main (F := Ideal))) ⟨m, fun _ => 0, ρ⟩ fun r => ∀ c : Dev nD,
      r.2.mem ((c : Thread nD τ).loc main_v6) = crossArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.WholeArray

end
-- ==== Proof.RefRows.lean ====
/-
  The reference, read one row at a time.

  Each of the reference's three layers takes the current matrix y [16384, 2048], a weight column w [2048, 1] and a bias
  column b [2048, 1], forms s_p = Σ_j y(p, j) · w(j, 0) for every row p, and returns (y(p, k) · s_p + b(k, 0)) + y(p, k).
  Entry (p, k) of a layer therefore depends only on row p of y: it is the residual spelling of the cross layer applied
  to that row.  The result of the program is the three layers nested, so entry (p, k) of the result is the three-fold
  residual layer of row p of the input.
-/
import proofs.«133371_j13322988552563_2_alg».proof.Proof.Gen.ReferenceIdeal.Read
import proofs.«133371_j13322988552563_2_alg».proof.Proof.CrossLaw

noncomputable section

namespace Cert.ReferenceIdeal.Rows

open Cert.ReferenceIdeal Cert.ReferenceIdeal.Read Idealize.ShloMosaic Idealize.ShloMosaic.ValueIdx Cert.CrossLaw

/-- The contraction reads the left operand along row p. -/
theorem lidx_row (p : Fin 16384) (k j : Fin 2048) : lidx_main_v0 (idx_main_v1 (ix2 p k)) j = ix2 p j :=
  funext fun a => Fin.ext (by match a with | ⟨0, _⟩ => rfl | ⟨1, _⟩ => rfl)

/-- The contraction reads the weight column at (j, 0). -/
theorem ridx_col (p : Fin 16384) (k j : Fin 2048) : ridx_main_v0 (idx_main_v1 (ix2 p k)) j = ix2 j (0 : Fin 1) :=
  funext fun a => Fin.ext (by match a with | ⟨0, _⟩ => rfl | ⟨1, _⟩ => rfl)

/-- The bias column, flattened, laid as a row and spread over the rows, is read at (k, 0). -/
theorem bias_idx (p : Fin 16384) (k : Fin 2048) : idx_main_v3 (idx_main_v4 (idx_main_v5 (ix2 p k))) = ix2 k (0 : Fin 1) :=
  funext fun a => Fin.ext (by match a with | ⟨0, _⟩ => exact Nat.div_one _ | ⟨1, _⟩ => rfl)

/-- One layer at entry (p, k): the residual spelling on row p. -/
theorem layer_apply (y : (⟨S16384x2048, .f32⟩ : BufTy).Contents (Elt Ideal)) (w b : (⟨S2048x1, .f32⟩ : BufTy).Contents (Elt Ideal))
    (p : Fin 16384) (k : Fin 2048) :
    val_main_v7 (F := Ideal) y w b (ix2 p k)
      = residual (fun j => y (ix2 p j)) (fun j => w (ix2 j (0 : Fin 1))) (fun j => b (ix2 j (0 : Fin 1))) k := by
  rw [val_main_v7_apply, val_main_v6_apply, val_main_v2_apply, val_main_v1_apply, val_main_v0_apply, val_main_v5_apply,
    val_main_v4_apply, val_main_v3_apply]
  simp only [lidx_row, ridx_col, bias_idx]
  rfl

/-- The second layer's stage is the first layer's stage applied to the first layer's result. -/
theorem stage15_eq (x : (⟨S16384x2048, .f32⟩ : BufTy).Contents (Elt Ideal)) (w1 b1 w2 b2 : (⟨S2048x1, .f32⟩ : BufTy).Contents (Elt Ideal)) :
    val_main_v15 (F := Ideal) x w1 b1 w2 b2 = val_main_v7 (F := Ideal) (val_main_v7 (F := Ideal) x w1 b1) w2 b2 := rfl

/-- The third layer's stage likewise. -/
theorem stage23_eq (x : (⟨S16384x2048, .f32⟩ : BufTy).Contents (Elt Ideal)) (w1 b1 w2 b2 w3 b3 : (⟨S2048x1, .f32⟩ : BufTy).Contents (Elt Ideal)) :
    val_main_v23 (F := Ideal) x w1 b1 w2 b2 w3 b3 = val_main_v7 (F := Ideal) (val_main_v15 (F := Ideal) x w1 b1 w2 b2) w3 b3 := rfl

/-- Entry (p, k) of the reference's result: three residual layers on row p of the input. -/
theorem result_apply (x : (⟨S16384x2048, .f32⟩ : BufTy).Contents (Elt Ideal)) (w1 b1 w2 b2 w3 b3 : (⟨S2048x1, .f32⟩ : BufTy).Contents (Elt Ideal))
    (p : Fin 16384) (k : Fin 2048) :
    val_main_v23 (F := Ideal) x w1 b1 w2 b2 w3 b3 (ix2 p k)
      = residual (residual (residual (fun j => x (ix2 p j)) (fun j => w1 (ix2 j (0 : Fin 1))) (fun j => b1 (ix2 j (0 : Fin 1))))
          (fun j => w2 (ix2 j (0 : Fin 1))) (fun j => b2 (ix2 j (0 : Fin 1))))
          (fun j => w3 (ix2 j (0 : Fin 1))) (fun j => b3 (ix2 j (0 : Fin 1))) k := by
  rw [stage23_eq, stage15_eq, layer_apply]
  simp only [layer_apply]

end Cert.ReferenceIdeal.Rows

end
-- ==== Proof.Joined.lean ====
/-
  The two programs compute one function of real inputs.

  Entry (p, k) of the reference's result is the three-fold residual layer of row p of the input; entry (p, k) of the
  kernel's result is the three-fold scaled layer of the same row, with the same weight and bias columns.  When every
  entry of the seven inputs is a real number the two rows agree, by the law of the cross layer.
-/
import proofs.«133371_j13322988552563_2_alg».proof.Proof.RefRows
import proofs.«133371_j13322988552563_2_alg».proof.Proof.KernelArray

noncomputable section

namespace Cert.Joined

open Idealize.ShloMosaic Idealize.ShloMosaic.ValueIdx Cert.CrossLaw

/-- On real inputs the reference's result array is the kernel's result array. -/
theorem reference_eq_kernel (x : Cert.ReferenceIdeal.S16384x2048.Idx → EReal)
    (w1 b1 w2 b2 w3 b3 : Cert.ReferenceIdeal.S2048x1.Idx → EReal)
    (hx : ∀ i, ∃ r : ℝ, x i = r) (hw1 : ∀ i, ∃ r : ℝ, w1 i = r) (hb1 : ∀ i, ∃ r : ℝ, b1 i = r)
    (hw2 : ∀ i, ∃ r : ℝ, w2 i = r) (hb2 : ∀ i, ∃ r : ℝ, b2 i = r)
    (hw3 : ∀ i, ∃ r : ℝ, w3 i = r) (hb3 : ∀ i, ∃ r : ℝ, b3 i = r) :
    Cert.ReferenceIdeal.Read.val_main_v23 (F := Ideal) x w1 b1 w2 b2 w3 b3
      = Cert.KernelIdeal.WholeArray.crossArray x w1 b1 w2 b2 w3 b3 := by
  funext i
  obtain ⟨p, k, rfl⟩ : ∃ (p : Fin 16384) (k : Fin 2048), i = ix2 p k := ⟨i 0, i 1, eq_ix2 i⟩
  rw [Cert.ReferenceIdeal.Rows.result_apply]
  exact (congrFun (scaled3_eq_residual3 _ _ _ _ _ _ _ (fun j => hx _) (fun j => hw1 _) (fun j => hb1 _) (fun j => hw2 _)
    (fun j => hb2 _) (fun j => hw3 _) (fun j => hb3 _)) k).symm

end Cert.Joined

end
-- ==== Proof.lean ====
/-
  The kernel and its reference compute the same three cross layers.

  A cross layer takes a matrix y [16384, 2048], a weight column w and a bias column b, forms for every row p the inner
  product s_p = Σ_j y(p, j) · w(j), and returns y(p, k) · s_p + b(k) + y(p, k).  The reference spells the layer that
  way, with a matrix product for s.  The kernel works on blocks of 512 rows, sums along each row for s, and folds the
  last addend into the scale: y(p, k) · (s_p + 1) + b(k).  Each entry of a layer depends on one row of y only, so the
  blocks of rows give the rows of the whole result, and the two spellings agree by distributivity — which holds on
  the extended reals where the entries are real numbers, as the precondition (every input entry finite) makes them,
  layer after layer.

  The three frames: the kernel's two are the generated frame proofs, the reference's is its generated run with the
  result dropped.  The idealization rewrote nothing, so that conjunct is trivial.  The algebraic conjunct sets the
  kernel's run (its output array as one function of the arguments) beside the reference's run (its result read at
  an index), and joins them where the inputs are real.
-/
import proofs.«133371_j13322988552563_2_alg».proof.Defs
import proofs.«133371_j13322988552563_2_alg».proof.Proof.Gen.Kernel
import proofs.«133371_j13322988552563_2_alg».proof.Proof.Gen.Kernel.Skeleton
import proofs.«133371_j13322988552563_2_alg».proof.Proof.Gen.Kernel.Launch
import proofs.«133371_j13322988552563_2_alg».proof.Proof.Gen.Kernel.Points
import proofs.«133371_j13322988552563_2_alg».proof.Proof.Gen.Kernel.Frame
import proofs.«133371_j13322988552563_2_alg».proof.Proof.Gen.KernelIdeal
import proofs.«133371_j13322988552563_2_alg».proof.Proof.Gen.KernelIdeal.Skeleton
import proofs.«133371_j13322988552563_2_alg».proof.Proof.Gen.KernelIdeal.Launch
import proofs.«133371_j13322988552563_2_alg».proof.Proof.Gen.KernelIdeal.Points
import proofs.«133371_j13322988552563_2_alg».proof.Proof.Gen.KernelIdeal.Frame
import proofs.«133371_j13322988552563_2_alg».proof.Proof.Gen.KernelIdeal.Value
import proofs.«133371_j13322988552563_2_alg».proof.Proof.Gen.ReferenceIdeal
import proofs.«133371_j13322988552563_2_alg».proof.Proof.Gen.ReferenceIdeal.Run
import proofs.«133371_j13322988552563_2_alg».proof.Proof.Gen.ReferenceIdeal.Read
import proofs.«133371_j13322988552563_2_alg».proof.Proof.Gen.Pre_finite_inputs
import proofs.«133371_j13322988552563_2_alg».proof.Proof.FiniteInputs
import proofs.«133371_j13322988552563_2_alg».proof.Proof.KernelArray
import proofs.«133371_j13322988552563_2_alg».proof.Proof.Joined
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array of the arguments: the kernel's by its blocks, the reference's by its rows
    and, the inputs being real, the law of the cross layer. -/
theorem algebraic : Cert.algebraic_KernelIdeal_ReferenceIdeal := by
  intro m ρ m' ρ' hpre hagree
  refine ⟨fun c => Cert.KernelIdeal.WholeArray.crossArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨r0, r1, r2, r3, r4, r5, r6⟩ := Cert.Pre_finite_inputs.Entries.inputs_real _ _ _ _ _ _ _ (hpre c)
  rw [Cert.ReferenceIdeal.Read.val_main_v23_eq, a0, a1, a2, a3, a4, a5, a6]
  exact Cert.Joined.reference_eq_kernel _ _ _ _ _ _ _ r0 r1 r2 r3 r4 r5 r6

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
